-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S800000x64 : Shape := ⟨2, ![800000, 64]⟩
abbrev S50000x64 : Shape := ⟨2, ![50000, 64]⟩
abbrev S1000000x2 : Shape := ⟨2, ![1000000, 2]⟩
abbrev S1000000 : Shape := ⟨1, ![1000000]⟩
abbrev S256x64 : Shape := ⟨2, ![256, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S64x32 .f32) (main_arg10 : FVec F S32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S1000000x64 .f32) (main_arg1 : FVec F S800000x64 .f32) (main_arg2 : FVec F S50000x64 .f32) (main_arg3 : IVec S1000000x2 32) (main_arg4 : IVec S1000000 32) (main_arg5 : FVec F S256x64 .f32) (main_arg6 : FVec F S64 .f32) (main_arg7 : FVec F S64x64 .f32) (main_arg8 : FVec F S64 .f32) (main_arg9 : FVec F S64x32 .f32) (main_arg10 : FVec F S32 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_arg7 main_arg8 main_arg9 main_arg10 main_v13 main_v16
-- ==== Kernel.lean ====
abbrev S1000000x64 : Shape := ⟨2, ![1000000, 64]⟩
abbrev S800000x64 : Shape := ⟨2, ![800000, 64]⟩
abbrev S50000x64 : Shape := ⟨2, ![50000, 64]⟩
abbrev S1000000x2 : Shape := ⟨2, ![1000000, 2]⟩
abbrev S1000000 : Shape := ⟨1, ![1000000]⟩
abbrev S256x64 : Shape := ⟨2, ![256, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩
abbrev S1000000x2x1 : Shape := ⟨3, ![1000000, 2, 1]⟩
abbrev S1000000x2x64 : Shape := ⟨3, ![1000000, 2, 64]⟩
abbrev S1000000x128 : Shape := ⟨2, ![1000000, 128]⟩
abbrev S1000000x1 : Shape := ⟨2, ![1000000, 1]⟩
abbrev S1x64 : Shape := ⟨2, ![1, 64]⟩
abbrev S1x32 : Shape := ⟨2, ![1, 32]⟩
abbrev S1000000x32 : Shape := ⟨2, ![1000000, 32]⟩
abbrev S8000x64 : Shape := ⟨2, ![8000, 64]⟩
abbrev S8000x128 : Shape := ⟨2, ![8000, 128]⟩
abbrev S8000x32 : Shape := ⟨2, ![8000, 32]⟩
abbrev S128x64 : Shape := ⟨2, ![128, 64]⟩

abbrev nBuf : Space → Nat
  | .hbm => 36
  | .vmem => 14
  | .smem => 0
  | _ => 0

abbrev bufTy : (tb : Table) → Fin (tcTables nBuf tb) → BufTy
  | .hbm, ⟨0, _⟩ => ⟨S1000000x64, .f32⟩
  | .hbm, ⟨1, _⟩ => ⟨S800000x64, .f32⟩
  | .hbm, ⟨2, _⟩ => ⟨S50000x64, .f32⟩
  | .hbm, ⟨3, _⟩ => ⟨S1000000x2, .i32⟩
  | .hbm, ⟨4, _⟩ => ⟨S1000000, .i32⟩
  | .hbm, ⟨5, _⟩ => ⟨S256x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S_, .i32⟩
  | .hbm, ⟨12, _⟩ => ⟨S1000000x2, .i32⟩
  | .hbm, ⟨13, _⟩ => ⟨S1000000x2, .i1⟩
  | .hbm, ⟨14, _⟩ => ⟨S_, .i32⟩
  | .hbm, ⟨15, _⟩ => ⟨S1000000x2, .i32⟩
  | .hbm, ⟨16, _⟩ => ⟨S1000000x2, .i32⟩
  | .hbm, ⟨17, _⟩ => ⟨S1000000x2, .i32⟩
  | .hbm, ⟨18, _⟩ => ⟨S1000000x2x1, .i32⟩
  | .hbm, ⟨19, _⟩ => ⟨S1000000x2x64, .f32⟩
  | .hbm, ⟨20, _⟩ => ⟨S1000000x128, .f32⟩
  | .hbm, ⟨21, _⟩ => ⟨S1000000x128, .bf16⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S1000000x64, .bf16⟩
  | .hbm, ⟨32, _⟩ => ⟨S1x64, .f32⟩
  | .hbm, ⟨33, _⟩ => ⟨S1x64, .f32⟩
  | .hbm, ⟨34, _⟩ => ⟨S1x32, .f32⟩
  | .hbm, ⟨35, _⟩ => ⟨S1000000x32, .f32⟩
  | .local _ .vmem, ⟨0, _⟩ => ⟨S8000x64, .f32⟩
  | .local _ .vmem, ⟨1, _⟩ => ⟨S8000x64, .f32⟩
  | .local _ .vmem, ⟨2, _⟩ => ⟨S8000x128, .bf16⟩
  | .local _ .vmem, ⟨3, _⟩ => ⟨S8000x128, .bf16⟩
  | .local _ .vmem, ⟨4, _⟩ => ⟨S8000x64, .bf16⟩
  | .local _ .vmem, ⟨5, _⟩ => ⟨S8000x64, .bf16⟩
  | .local _ .vmem, ⟨6, _⟩ => ⟨S256x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x32, .f32⟩
  | .local _ .vmem, ⟨11, _⟩ => ⟨S1x32, .f32⟩
  | .local _ .vmem, ⟨12, _⟩ => ⟨S8000x32, .f32⟩
  | .local _ .vmem, ⟨13, _⟩ => ⟨S8000x32, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x64_S1000000x128 : S1000000x2x64.ShapeCasts S1000000x128
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S64_S1x64 : S64.ShapeCasts S1x64
  shapeCasts_S32_S1x32 : S32.ShapeCasts S1x32
  inb_S256x64_S64x64_0_0 : ∀ a, (![0, 0] : Fin 2 → Nat) a + S64x64.size a ≤ S256x64.size a
  h_S64x64 : 0 < S64x64.numel
  inb_S256x64_S128x64_64_0 : ∀ a, (![64, 0] : Fin 2 → Nat) a + S128x64.size a ≤ S256x64.size a
  h_S128x64 : 0 < S128x64.numel
  inb_S256x64_S64x64_192_0 : ∀ a, (![192, 0] : Fin 2 → Nat) a + S64x64.size a ≤ S256x64.size a
  inb_S8000x64_S8000x64_0_0 : ∀ a, (![0, 0] : Fin 2 → Nat) a + S8000x64.size a ≤ S8000x64.size a
  h_S8000x64 : 0 < S8000x64.numel
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  shapeCasts_S8000x64_S8000x64 : S8000x64.ShapeCasts S8000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  gather_S800000x64_S1000000x2x1_S1000000x2x64_2_0_n_n_0_2_164_wf : GatherDims.WF S800000x64 S1000000x2x1 S1000000x2x64 [2] [0] [] [0] [] 2 ![1, 64]
  gather_S50000x64_S1000000x1_S1000000x64_1_0_n_n_0_1_164_wf : GatherDims.WF S50000x64 S1000000x1 S1000000x64 [1] [0] [] [0] [] 1 ![1, 64]
  dot_S8000x64_S64x64_S8000x64_1_0_0_1_n_n_wf : DotDims.WF S8000x64 S64x64 S8000x64 [1] [0] [0] [1] [] []
  dot_S8000x128_S128x64_S8000x64_1_0_0_1_n_n_wf : DotDims.WF S8000x128 S128x64 S8000x64 [1] [0] [0] [1] [] []
  dot_S8000x64_S64x32_S8000x32_1_0_0_1_n_n_wf : DotDims.WF S8000x64 S64x32 S8000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S1000000x128.size a
  hwx0_1 : ∀ i : grid0.Coords, EltTy.bits .bf16 = 32 ∨ (Rect.block (s := S1000000x128) S8000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1000000x64.size a
  hwx0_2 : ∀ i : grid0.Coords, EltTy.bits .bf16 = 32 ∨ (Rect.block (s := S1000000x64) S8000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x32.size a ≤ S1000000x32.size a
  hwx0_9 : ∀ i : grid0.Coords, EltTy.bits .f32 = 32 ∨ (Rect.block (s := S1000000x32) S8000x32.size (cc0_transform_9 i) (hinb0_9 i)).WholeWords (EltTy.packing .f32)

variable [Facts₀]

def gather_S800000x64_S1000000x2x1_S1000000x2x64_2_0_n_n_0_2_164 : GatherDims S800000x64 S1000000x2x1 S1000000x2x64 where
  offsetDims := [2]
  collapsedSliceDims := [0]
  operandBatchingDims := []
  startIndicesBatchingDims := []
  startIndexMap := [0]
  indexVectorDim := 2
  sliceSizes := ![1, 64]
  wf := gather_S800000x64_S1000000x2x1_S1000000x2x64_2_0_n_n_0_2_164_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S8000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S800000x64 : Shape := ⟨2, ![800000, 64]⟩
abbrev S50000x64 : Shape := ⟨2, ![50000, 64]⟩
abbrev S1000000x2 : Shape := ⟨2, ![1000000, 2]⟩
abbrev S1000000 : Shape := ⟨1, ![1000000]⟩
abbrev S256x64 : Shape := ⟨2, ![256, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩
abbrev S1000000x2x1 : Shape := ⟨3, ![1000000, 2, 1]⟩
abbrev S1000000x2x64 : Shape := ⟨3, ![1000000, 2, 64]⟩
abbrev S1000000x128 : Shape := ⟨2, ![1000000, 128]⟩
abbrev S1000000x1 : Shape := ⟨2, ![1000000, 1]⟩
abbrev S1000000x256 : Shape := ⟨2, ![1000000, 256]⟩
abbrev S1x64 : Shape := ⟨2, ![1, 64]⟩
abbrev S1000000x32 : Shape := ⟨2, ![1000000, 32]⟩
abbrev S1x32 : Shape := ⟨2, ![1, 32]⟩

abbrev nBuf : Space → Nat
  | .hbm => 71
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S800000x64, .f32⟩
  | .hbm, ⟨2, _⟩ => ⟨S50000x64, .f32⟩
  | .hbm, ⟨3, _⟩ => ⟨S1000000x2, .i32⟩
  | .hbm, ⟨4, _⟩ => ⟨S1000000, .i32⟩
  | .hbm, ⟨5, _⟩ => ⟨S256x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S_, .i32⟩
  | .hbm, ⟨12, _⟩ => ⟨S1000000x2, .i32⟩
  | .hbm, ⟨13, _⟩ => ⟨S1000000x2, .i1⟩
  | .hbm, ⟨14, _⟩ => ⟨S_, .i32⟩
  | .hbm, ⟨15, _⟩ => ⟨S1000000x2, .i32⟩
  | .hbm, ⟨16, _⟩ => ⟨S1000000x2, .i32⟩
  | .hbm, ⟨17, _⟩ => ⟨S1000000x2, .i32⟩
  | .hbm, ⟨18, _⟩ => ⟨S1000000x2x1, .i32⟩
  | .hbm, ⟨19, _⟩ => ⟨S1000000x2x64, .f32⟩
  | .hbm, ⟨20, _⟩ => ⟨S1000000x128, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S1000000x256, .f32⟩
  | .hbm, ⟨31, _⟩ => ⟨S1000000x64, .f32⟩
  | .hbm, ⟨32, _⟩ => ⟨S1x64, .f32⟩
  | .hbm, ⟨33, _⟩ => ⟨S1000000x64, .f32⟩
  | .hbm, ⟨34, _⟩ => ⟨S1000000x64, .f32⟩
  | .hbm, ⟨35, _⟩ => ⟨S_, .f32⟩
  | .hbm, ⟨36, _⟩ => ⟨S1000000x64, .f32⟩
  | .hbm, ⟨37, _⟩ => ⟨S1000000x64, .f32⟩
  | .hbm, ⟨38, _⟩ => ⟨S1000000x64, .f32⟩
  | .hbm, ⟨39, _⟩ => ⟨S1000000x64, .f32⟩
  | .hbm, ⟨40, _⟩ => ⟨S1000000x64, .i1⟩
  | .hbm, ⟨41, _⟩ => ⟨S1000000x64, .f32⟩
  | .hbm, ⟨42, _⟩ => ⟨S1000000x64, .f32⟩
  | .hbm, ⟨43, _⟩ => ⟨S1000000x64, .f32⟩
  | .hbm, ⟨44, _⟩ => ⟨S1000000x64, .f32⟩
  | .hbm, ⟨45, _⟩ => ⟨S1000000x64, .f32⟩
  | .hbm, ⟨46, _⟩ => ⟨S1000000x64, .f32⟩
  | .hbm, ⟨47, _⟩ => ⟨S1000000x64, .f32⟩
  | .hbm, ⟨48, _⟩ => ⟨S1000000x64, .f32⟩
  | .hbm, ⟨49, _⟩ => ⟨S1000000x64, .f32⟩
  | .hbm, ⟨50, _⟩ => ⟨S1x64, .f32⟩
  | .hbm, ⟨51, _⟩ => ⟨S1000000x64, .f32⟩
  | .hbm, ⟨52, _⟩ => ⟨S1000000x64, .f32⟩
  | .hbm, ⟨53, _⟩ => ⟨S_, .f32⟩
  | .hbm, ⟨54, _⟩ => ⟨S1000000x64, .f32⟩
  | .hbm, ⟨55, _⟩ => ⟨S1000000x64, .f32⟩
  | .hbm, ⟨56, _⟩ => ⟨S1000000x64, .f32⟩
  | .hbm, ⟨57, _⟩ => ⟨S1000000x64, .f32⟩
  | .hbm, ⟨58, _⟩ => ⟨S1000000x64, .i1⟩
  | .hbm, ⟨59, _⟩ => ⟨S1000000x64, .f32⟩
  | .hbm, ⟨60, _⟩ => ⟨S1000000x64, .f32⟩
  | .hbm, ⟨61, _⟩ => ⟨S1000000x64, .f32⟩
  | .hbm, ⟨62, _⟩ => ⟨S1000000x64, .f32⟩
  | .hbm, ⟨63, _⟩ => ⟨S1000000x64, .f32⟩
  | .hbm, ⟨64, _⟩ => ⟨S1000000x64, .f32⟩
  | .hbm, ⟨65, _⟩ => ⟨S1000000x64, .f32⟩
  | .hbm, ⟨66, _⟩ => ⟨S1000000x64, .f32⟩
  | .hbm, ⟨67, _⟩ => ⟨S1000000x32, .f32⟩
  | .hbm, ⟨68, _⟩ => ⟨S1x32, .f32⟩
  | .hbm, ⟨69, _⟩ => ⟨S1000000x32, .f32⟩
  | .hbm, ⟨70, _⟩ => ⟨S1000000x32, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩

abbrev nD : Nat := 1
abbrev τ : Topo := Topo.v7x

variable {F : FTy → Type} [FloatOps F]

class Facts₀ : Prop where
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x64_S1000000x128 : S1000000x2x64.ShapeCasts S1000000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x128_S1000000x64_S1000000x256_d1 : Shape.Concatenates [S1000000x64, S1000000x128, S1000000x64] S1000000x256 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  gather_S800000x64_S1000000x2x1_S1000000x2x64_2_0_n_n_0_2_164_wf : GatherDims.WF S800000x64 S1000000x2x1 S1000000x2x64 [2] [0] [] [0] [] 2 ![1, 64]
  gather_S50000x64_S1000000x1_S1000000x64_1_0_n_n_0_1_164_wf : GatherDims.WF S50000x64 S1000000x1 S1000000x64 [1] [0] [] [0] [] 1 ![1, 64]
  dot_S1000000x256_S256x64_S1000000x64_1_0_0_1_n_n_wf : DotDims.WF S1000000x256 S256x64 S1000000x64 [1] [0] [0] [1] [] []
  dot_S1000000x64_S64x64_S1000000x64_1_0_0_1_n_n_wf : DotDims.WF S1000000x64 S64x64 S1000000x64 [1] [0] [0] [1] [] []
  dot_S1000000x64_S64x32_S1000000x32_1_0_0_1_n_n_wf : DotDims.WF S1000000x64 S64x32 S1000000x32 [1] [0] [0] [1] [] []

variable [Facts₀]

def gather_S800000x64_S1000000x2x1_S1000000x2x64_2_0_n_n_0_2_164 : GatherDims S800000x64 S1000000x2x1 S1000000x2x64 where
  offsetDims := [2]
  collapsedSliceDims := [0]
  operandBatchingDims := []
  startIndicesBatchingDims := []
  startIndexMap := [0]
  indexVectorDim := 2
  sliceSizes := ![1, 64]
  wf := gather_S800000x64_S1000000x2x1_S1000000x2x64_2_0_n_n_0_2_164_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x256_S256x64_S1000000x64_1_0_0_1_n_n : DotDims S1000000x256 S256x64 S1000000x64 where
  lhsContracting := [1]
  rhsContracting := [0]
  lhsNonContracting := [0]
  rhsNonContracting := [1]
  lhsBatch := []
  rhsBatch := []
  wf := dot_S1000000x256_S256x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf

class Facts : Prop extends Facts₀ where

variable [Facts]
-- ==== Proof.LibDenseLayer.lean ====
/-
  A dense layer read at one entry, at the ideal values (extended reals, every operation exact).

  `affine x W bias j` is entry `j` of `x W + bias` for one row `x`: the sum over the contracted coordinate of the products,
  plus the bias entry. `layer_apply`: a plain matrix product of an [R, K] block by a [K, N] matrix accumulated into a zero
  splat, plus a [1, N] bias row laid along every row, read at the entry (p, j), is `affine` of row `p` of the block; nothing
  of it depends on the other rows or on `R`. `relu_apply`: the maximum with a splat of the zero word, read at an entry, is
  `max · 0`. `shapeCast_a1b_ab_apply`: an [a, 1, b] array cast to [a, b] reads, at (i, j), the operand at (i, 0, j).
-/
import Idealize.ShloMosaic.Lib.ValueLayout
import Idealize.ShloMosaic.Lib.StackMember
import Idealize.ShloMosaic.PureOps.Ideal.Laws

noncomputable section

open scoped BigOperators

namespace Cert.Lib.DenseLayer

open Idealize.ShloMosaic Idealize.ShloMosaic.ValueIdx Idealize.ShloMosaic.StackMember

/-- One affine layer on one row: entry `j` of `x W + bias`. -/
def affine {K N : Nat} (x : Fin K → EReal) (w : FVec Ideal ⟨2, ![K, N]⟩ .f32) (bias : Fin N → EReal) (j : Fin N) : EReal :=
  ∑ k : Fin K, x k * w (ix2 k j) + bias j

/-- A matrix product into a zero accumulator, plus a bias row laid along every row, read at the entry (p, j): the
    affine layer of row `p`. The dimension numbers are any record equal to the plain ones (contract the left operand's
    axis 1 with the right operand's axis 0, no batch axis). -/
theorem layer_apply {R K N : Nat} (D : DotDims ⟨2, ![R, K]⟩ ⟨2, ![K, N]⟩ ⟨2, ![R, N]⟩) (hD : D = DotDims.plain R K N)
    (prec : Option ContractPrecision) (h : FVec Ideal ⟨2, ![R, K]⟩ .f32) (w : FVec Ideal ⟨2, ![K, N]⟩ .f32)
    (bias : FVec Ideal ⟨2, ![1, N]⟩ .f32) (hb : (⟨2, ![1, N]⟩ : Shape).Broadcasts ⟨2, ![R, N]⟩) (p : Fin R) (j : Fin N) :
    addf (matmul D prec h w (constant ⟨2, ![R, N]⟩ .f32 0x00000000#32)) (broadcastTo ⟨2, ![R, N]⟩ bias hb) (ix2 p j)
      = affine (fun k => h (ix2 p k)) w (fun j => bias (ix2 (0 : Fin 1) j)) j := by
  subst hD
  rw [addf_apply, broadcastTo_1b_ab_apply]
  unfold affine
  refine congrArg (· + bias (ix2 (0 : Fin 1) j)) ?_
  exact (congrFun (matmul_zero_eq_dotGeneral _ prec h w) _).trans (dotGeneral_plain_apply prec h w p j)

/-- The maximum with a splat zero, read at an entry. -/
theorem relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.DenseLayer

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.Spec.lean ====
/-
  The bond-update layer as one function of the argument arrays, over the extended reals.

  A bond's row is the concatenation of its own 64 features, the 128 features of its two atoms and the 64 features of
  its global node. The layer is three dense layers with softplus after the first two:
  `out = softplus(softplus(x W1 + b1) W2 + b2) W3 + b3`. The first product is written here with the 256 contracted
  coordinates already split where the three pieces were joined: the pieces meet rows 0–63, 64–191 and 192–255 of W1.
  `bondLayer` is the whole result array: entry (r, j) depends on row r of the three feature arrays only.
-/
import proofs.«111185_j18373870092600_2_alg».proof.Proof.LibDenseLayer
import proofs.«111185_j18373870092600_2_alg».proof.Proof.LibSoftplus

noncomputable section

open scoped BigOperators

namespace Cert.BondMlp

open Idealize.ShloMosaic Idealize.ShloMosaic.ValueIdx Cert.Lib.DenseLayer Cert.Lib.Softplus

/-- First-layer pre-activation of one row given as its three pieces: the pieces meet rows 0–63, 64–191 and 192–255 of W1. -/
def pre1 (W1 : FVec Ideal ⟨2, ![256, 64]⟩ .f32) (b1 : Fin 64 → EReal)
    (xb : Fin 64 → EReal) (xa : Fin 128 → EReal) (xg : Fin 64 → EReal) (j : Fin 64) : EReal :=
  ((∑ k : Fin 64, xb k * W1 (ix2 ⟨k.val, by omega⟩ j) + ∑ k : Fin 128, xa k * W1 (ix2 ⟨64 + k.val, by omega⟩ j))
    + ∑ k : Fin 64, xg k * W1 (ix2 ⟨192 + k.val, by omega⟩ j)) + b1 j

/-- The three layers on one row: entry `j` of `softplus(softplus(x W1 + b1) W2 + b2) W3 + b3`. -/
def mlpRow (W1 : FVec Ideal ⟨2, ![256, 64]⟩ .f32) (b1 : Fin 64 → EReal) (W2 : FVec Ideal ⟨2, ![64, 64]⟩ .f32) (b2 : Fin 64 → EReal)
    (W3 : FVec Ideal ⟨2, ![64, 32]⟩ .f32) (b3 : Fin 32 → EReal)
    (xb : Fin 64 → EReal) (xa : Fin 128 → EReal) (xg : Fin 64 → EReal) (j : Fin 32) : EReal :=
  affine (fun k => sp (affine (fun k' => sp (pre1 W1 b1 xb xa xg k')) W2 b2 k)) W3 b3 j

/-- `mlpRow` of equal data is equal. -/
theorem mlpRow_congr {W1 W1' : FVec Ideal ⟨2, ![256, 64]⟩ .f32} {b1 b1' : Fin 64 → EReal}
    {W2 W2' : FVec Ideal ⟨2, ![64, 64]⟩ .f32} {b2 b2' : Fin 64 → EReal} {W3 W3' : FVec Ideal ⟨2, ![64, 32]⟩ .f32} {b3 b3' : Fin 32 → EReal}
    {xb xb' : Fin 64 → EReal} {xa xa' : Fin 128 → EReal} {xg xg' : Fin 64 → EReal} {j j' : Fin 32}
    (h1 : W1 = W1') (hb1 : b1 = b1') (h2 : W2 = W2') (hb2 : b2 = b2') (h3 : W3 = W3') (hb3 : b3 = b3')
    (hxb : xb = xb') (hxa : xa = xa') (hxg : xg = xg') (hj : j = j') :
    mlpRow W1 b1 W2 b2 W3 b3 xb xa xg j = mlpRow W1' b1' W2' b2' W3' b3' xb' xa' xg' j' := by
  subst h1 hb1 h2 hb2 h3 hb3 hxb hxa hxg hj; rfl

/-- The whole result: entry (r, j) is `mlpRow` of row r of the bond features, the gathered atom features and the
    gathered global features; the biases given as one-row matrices. -/
def bondLayer (bond : (⟨2, ![1000000, 64]⟩ : Shape).Idx → EReal) (atoms : (⟨2, ![1000000, 128]⟩ : Shape).Idx → EReal)
    (glob : (⟨2, ![1000000, 64]⟩ : Shape).Idx → EReal)
    (W1 : FVec Ideal ⟨2, ![256, 64]⟩ .f32) (b1 : (⟨2, ![1, 64]⟩ : Shape).Idx → EReal)
    (W2 : FVec Ideal ⟨2, ![64, 64]⟩ .f32) (b2 : (⟨2, ![1, 64]⟩ : Shape).Idx → EReal)
    (W3 : FVec Ideal ⟨2, ![64, 32]⟩ .f32) (b3 : (⟨2, ![1, 32]⟩ : Shape).Idx → EReal) :
    (⟨2, ![1000000, 32]⟩ : Shape).Idx → EReal :=
  fun i => mlpRow W1 (fun j => b1 (ix2 (0 : Fin 1) j)) W2 (fun j => b2 (ix2 (0 : Fin 1) j)) W3 (fun j => b3 (ix2 (0 : Fin 1) j))
    (fun k => bond (ix2 (i 0) k)) (fun k => atoms (ix2 (i 0) k)) (fun k => glob (ix2 (i 0) k)) (i 1)

end Cert.BondMlp

end
-- ==== Proof.KernelBlock.lean ====
/-
  One grid point of the kernel: what the body leaves in the output block, read at an entry.

  The body computes, for its 8000 rows at once, the three layers of `Cert.BondMlp.mlpRow`: the first product as three
  partial products of the row's three pieces against rows 0–63, 64–191 and 192–255 of W1 (loaded as three
  sub-rectangles of the resident 256×64 block), each into a zero accumulator and then added; the bias row laid along
  the rows; softplus; and so on twice more. Entry (p, j) of the block is `mlpRow` of row p of the three input blocks:
  it depends on no other row. The casts to bf16 before each product are the identity on the extended reals.
-/
import proofs.«111185_j18373870092600_2_alg».proof.Proof.Gen.KernelIdeal.Frame
import proofs.«111185_j18373870092600_2_alg».proof.Proof.Spec
import Idealize.ShloMosaic.Lib.ValueLayout
import Idealize.ShloMosaic.Lib.Pipeline.Value

noncomputable section

open scoped BigOperators

namespace Cert.KernelIdeal.Block

open Idealize.ShloMosaic Idealize.ShloMosaic.ValueIdx Cert.KernelIdeal Cert.KernelIdeal.Gen
open Cert.Lib.DenseLayer Cert.Lib.Softplus Cert.BondMlp

/-- The first layer with its softplus, at entry (p, j) of the block: the three partial products summed, plus the bias. -/
theorem layer1_apply (v0 : Vec Ideal S64x64 .f32) (v2 : Vec Ideal S128x64 .f32) (v4 : Vec Ideal S64x64 .f32)
    (v6 : Vec Ideal S8000x64 .f32) (v8 : Vec Ideal S8000x128 .bf16) (v10 : Vec Ideal S8000x64 .bf16) (v17 : Vec Ideal S1x64 .f32)
    (p : Fin 8000) (j : Fin 64) :
    k0_pay3 (F := Ideal) v0 v2 v4 v6 v8 v10 v17 (ix2 p j)
      = sp (((∑ k : Fin 64, v6 (ix2 p k) * v0 (ix2 k j) + ∑ k : Fin 128, v8 (ix2 p k) * v2 (ix2 k j))
          + ∑ k : Fin 64, v10 (ix2 p k) * v4 (ix2 k j)) + v17 (ix2 (0 : Fin 1) j)) := by
  unfold k0_pay3
  refine (truncf_apply (ψ := .bf16) (φ := .f32) _ bitsLt_bf16_f32 _).trans ?_
  refine (softplus_vector_apply _ zero_word _ _).trans ?_
  refine congrArg sp ?_
  refine congrArg₂ (· + ·) (congrArg₂ (· + ·) (congrArg₂ (· + ·) ?_ ?_) ?_) ?_
  · exact matmul0_plain_apply _ rfl none _ _ p j
  · refine (matmul0_plain_apply _ rfl none _ _ p j).trans ?_
    rw [shapeCast_self]
    rfl
  · refine (matmul0_plain_apply _ rfl none _ _ p j).trans ?_
    rw [shapeCast_self]
    rfl
  · refine (broadcastTo_1b_ab_apply _ _ p j).trans ?_
    rw [shapeCast_self]

/-- The second layer with its softplus and the third layer, at entry (p, j), over the first layer's output `v37`. -/
theorem layers23_apply (v36 : FVec Ideal S64x64 .bf16) (v37 : FVec Ideal S8000x64 .bf16) (v39 : Vec Ideal S1x64 .f32)
    (v57 : Vec Ideal S64x32 .f32) (v61 : Vec Ideal S1x32 .f32) (p : Fin 8000) (j : Fin 32) :
    k0_pay1 (F := Ideal) v36 v37 v39 v57 v61 (ix2 p j)
      = ∑ k : Fin 64, sp (∑ k' : Fin 64, v37 (ix2 p k') * v36 (ix2 k' k) + v39 (ix2 (0 : Fin 1) k)) * v57 (ix2 k j)
          + v61 (ix2 (0 : Fin 1) j) := by
  unfold k0_pay1
  refine congrArg₂ (· + ·) ?_ ?_
  · refine (matmul0_plain_apply _ rfl none _ _ p j).trans ?_
    refine Finset.sum_congr rfl fun k _ => ?_
    refine congrArg₂ (· * ·) ?_ rfl
    refine (truncf_apply (ψ := .bf16) (φ := .f32) _ bitsLt_bf16_f32 _).trans ?_
    refine (softplus_vector_apply _ zero_word _ _).trans ?_
    refine congrArg sp ?_
    refine congrArg₂ (· + ·) (matmul0_plain_apply _ rfl none _ _ p k) ?_
    refine (broadcastTo_1b_ab_apply _ _ p k).trans ?_
    rw [shapeCast_self]
  · refine (broadcastTo_1b_ab_apply _ _ p j).trans ?_
    rw [shapeCast_self]

theorem zero_offsets : (![0, 0] : Fin 2 → Nat) = fun _ => 0 := funext fun a => by fin_cases a <;> rfl

/-- Rows 0–63 of the resident W1 block, loaded as a 64×64 rectangle. -/
theorem ld_w1_bond (x3 : Vec Ideal S256x64 .f32) (k : Fin 64) (j : Fin 64) :
    View.ld x3 r0_0 (ix2 k j) = x3 (ix2 ⟨k.val, by omega⟩ j) := by
  show x3 (r0_0.emb (ix2 k j)) = _
  refine congrArg x3 (funext fun a => Fin.ext ?_)
  match a with
  | ⟨0, _⟩ => show 0 + 1 * k.val = k.val; omega
  | ⟨1, _⟩ => show 0 + 1 * j.val = j.val; omega

/-- Rows 64–191, loaded as a 128×64 rectangle. -/
theorem ld_w1_atom (x3 : Vec Ideal S256x64 .f32) (k : Fin 128) (j : Fin 64) :
    View.ld x3 r0_1 (ix2 k j) = x3 (ix2 ⟨64 + k.val, by omega⟩ j) := by
  show x3 (r0_1.emb (ix2 k j)) = _
  refine congrArg x3 (funext fun a => Fin.ext ?_)
  match a with
  | ⟨0, _⟩ => show 64 + 1 * k.val = 64 + k.val; omega
  | ⟨1, _⟩ => show 0 + 1 * j.val = j.val; omega

/-- Rows 192–255, loaded as a 64×64 rectangle. -/
theorem ld_w1_glob (x3 : Vec Ideal S256x64 .f32) (k : Fin 64) (j : Fin 64) :
    View.ld x3 r0_2 (ix2 k j) = x3 (ix2 ⟨192 + k.val, by omega⟩ j) := by
  show x3 (r0_2.emb (ix2 k j)) = _
  refine congrArg x3 (funext fun a => Fin.ext ?_)
  match a with
  | ⟨0, _⟩ => show 192 + 1 * k.val = 192 + k.val; omega
  | ⟨1, _⟩ => show 0 + 1 * j.val = j.val; omega

/-- Entry (p, j) of the output block is the three layers on row p of the three input blocks. -/
theorem out_block_apply (x0 : Vec Ideal S8000x64 .f32) (x1 : Vec Ideal S8000x128 .bf16) (x2 : Vec Ideal S8000x64 .bf16)
    (x3 : Vec Ideal S256x64 .f32) (x4 : Vec Ideal S1x64 .f32) (x5 : Vec Ideal S64x64 .f32) (x6 : Vec Ideal S1x64 .f32)
    (x7 : Vec Ideal S64x32 .f32) (x8 : Vec Ideal S1x32 .f32) (p : Fin 8000) (j : Fin 32) :
    out0_9 (F := Ideal) x0 x1 x2 x3 x4 x5 x6 x7 x8 (ix2 p j)
      = mlpRow x3 (fun j => x4 (ix2 (0 : Fin 1) j)) x5 (fun j => x6 (ix2 (0 : Fin 1) j)) x7 (fun j => x8 (ix2 (0 : Fin 1) j))
          (fun k => x0 (ix2 p k)) (fun k => x1 (ix2 p k)) (fun k => x2 (ix2 p k)) j := by
  unfold out0_9
  rw [View.canon_unit_zero zero_offsets]
  simp only [View.ld_unit_zero (S := S8000x64) zero_offsets, View.ld_unit_zero (S := S8000x128) zero_offsets,
    View.ld_unit_zero (S := S1x64) zero_offsets, View.ld_unit_zero (S := S64x64) zero_offsets,
    View.ld_unit_zero (S := S64x32) zero_offsets, View.ld_unit_zero (S := S1x32) zero_offsets]
  refine (layers23_apply _ _ _ _ _ p j).trans ?_
  unfold mlpRow affine
  refine congrArg₂ (· + ·) (Finset.sum_congr rfl fun k _ => congrArg₂ (· * ·) (congrArg sp ?_) rfl) rfl
  refine congrArg₂ (· + ·) (Finset.sum_congr rfl fun k' _ => congrArg₂ (· * ·) ?_ rfl) rfl
  refine (layer1_apply _ _ _ _ _ _ _ p k').trans (congrArg sp ?_)
  unfold pre1
  refine congrArg₂ (· + ·) (congrArg₂ (· + ·) (congrArg₂ (· + ·) ?_ ?_) ?_) rfl
  · exact Finset.sum_congr rfl fun q _ => congrArg₂ (· * ·) rfl (ld_w1_bond x3 q k')
  · exact Finset.sum_congr rfl fun q _ => congrArg₂ (· * ·) rfl (ld_w1_atom x3 q k')
  · exact Finset.sum_congr rfl fun q _ => congrArg₂ (· * ·) rfl (ld_w1_glob x3 q k')

/-- The same at any index of the block. -/
theorem out_block_at (x0 : Vec Ideal S8000x64 .f32) (x1 : Vec Ideal S8000x128 .bf16) (x2 : Vec Ideal S8000x64 .bf16)
    (x3 : Vec Ideal S256x64 .f32) (x4 : Vec Ideal S1x64 .f32) (x5 : Vec Ideal S64x64 .f32) (x6 : Vec Ideal S1x64 .f32)
    (x7 : Vec Ideal S64x32 .f32) (x8 : Vec Ideal S1x32 .f32) (y : S8000x32.Idx) :
    out0_9 (F := Ideal) x0 x1 x2 x3 x4 x5 x6 x7 x8 y
      = mlpRow x3 (fun j => x4 (ix2 (0 : Fin 1) j)) x5 (fun j => x6 (ix2 (0 : Fin 1) j)) x7 (fun j => x8 (ix2 (0 : Fin 1) j))
          (fun k => x0 (ix2 (y 0) k)) (fun k => x1 (ix2 (y 0) k)) (fun k => x2 (ix2 (y 0) k)) (y 1) :=
  (congrArg (out0_9 (F := Ideal) x0 x1 x2 x3 x4 x5 x6 x7 x8) (eq_ix2 y)).trans
    (out_block_apply x0 x1 x2 x3 x4 x5 x6 x7 x8 (y 0) (y 1))

end Cert.KernelIdeal.Block

end
-- ==== Proof.KernelArray.lean ====
/-
  The kernel's result array after the run, as one function of the argument arrays.

  The pipeline has 125 grid points; point `t` stages rows 8000 t … 8000 t + 7999 of the bond features, of the gathered
  atom features and of the gathered global features, together with the resident weights and bias rows, and writes back
  rows 8000 t … 8000 t + 7999 of the result. The host prepares the gathered arrays and the one-row bias matrices before
  the region. Each written block is the block of `Cert.BondMlp.bondLayer` of the arrays as the region finds them
  (entry (p, j) of a block depends on row p of the staged blocks only), and the 125 blocks tile the array, so the array
  ends as `bondLayer` of the argument arrays.
-/
import proofs.«111185_j18373870092600_2_alg».proof.Proof.Gen.KernelIdeal.Value
import proofs.«111185_j18373870092600_2_alg».proof.Proof.KernelBlock
import Idealize.ShloMosaic.Lib.StableHlo.Run
import Idealize.ShloMosaic.Lib.ValueLayout

noncomputable section

open scoped BigOperators

namespace Cert.KernelIdeal.Array

open Idealize.ShloMosaic Idealize.ShloMosaic.TcCoe Idealize.SL.Sem Idealize.ShloMosaic.ValueIdx
open Cert.KernelIdeal Cert.KernelIdeal.Gen Cert.BondMlp Cert.KernelIdeal.Block
open Idealize.ShloMosaic.Pipeline (Dat)

variable (m : (ℓ : Loc nD τ sig) → Buf (Elt Ideal) ℓ) (ρ : Dev nD → PrngReg)

/-! ## The arrays the host prepares before the region -/
/-- The two atoms' features of every bond, gathered and laid side by side (128 per bond), stored as bf16. -/
def atomRows (x1 : (⟨S800000x64, .f32⟩ : BufTy).Contents (Elt Ideal)) (x3 : (⟨S1000000x2, .i32⟩ : BufTy).Contents (Elt Ideal)) :
    FVec Ideal S1000000x128 .bf16 :=
  truncf .bf16 (shapeCast S1000000x128 (Host.gather gather_S800000x64_S1000000x2x1_S1000000x2x64_2_0_n_n_0_2_164 x1
      (broadcastInDim S1000000x2x1 ![0, 1] bcast_S1000000x2_S1000000x2x1_0_1
        (select (cmpi .slt x3 (broadcastInDim S1000000x2 ![] bcast_S_S1000000x2 (constantI S_ 32 0#32)))
          (addi x3 (broadcastInDim S1000000x2 ![] bcast_S_S1000000x2 (constantI S_ 32 800000#32))) x3)))
    shapeCasts_S1000000x2x64_S1000000x128) bitsLt_bf16_f32

/-- The global node's features of every bond, gathered, stored as bf16. -/
def globRows (x2 : (⟨S50000x64, .f32⟩ : BufTy).Contents (Elt Ideal)) (x4 : (⟨S1000000, .i32⟩ : BufTy).Contents (Elt Ideal)) :
    FVec Ideal S1000000x64 .bf16 :=
  truncf .bf16 (Host.gather gather_S50000x64_S1000000x1_S1000000x64_1_0_n_n_0_1_164 x2
      (broadcastInDim S1000000x1 ![0] bcast_S1000000_S1000000x1_0
        (select (cmpi .slt x4 (broadcastInDim S1000000 ![] bcast_S_S1000000 (constantI S_ 32 0#32)))
          (addi x4 (broadcastInDim S1000000 ![] bcast_S_S1000000 (constantI S_ 32 50000#32))) x4)))
    bitsLt_bf16_f32

theorem V_atoms (c : Dev nD) : (V m c main_v8 : S1000000x128.Idx → EReal)
    = atomRows (m ((c : Thread nD τ).loc main_arg1)) (m ((c : Thread nD τ).loc main_arg3)) := by
  dsimp only [Gen.V, Gen.hostOps0]
  after_results
  rfl

theorem V_glob (c : Dev nD) : (V m c main_v16 : S1000000x64.Idx → EReal)
    = globRows (m ((c : Thread nD τ).loc main_arg2)) (m ((c : Thread nD τ).loc main_arg4)) := by
  dsimp only [Gen.V, Gen.hostOps0]
  after_results
  rfl

theorem V_b1 (c : Dev nD) : (V m c main_v17 : S1x64.Idx → EReal)
    = shapeCast S1x64 (m ((c : Thread nD τ).loc main_arg6)) shapeCasts_S64_S1x64 := by
  dsimp only [Gen.V, Gen.hostOps0]
  after_results
  rfl

theorem V_b2 (c : Dev nD) : (V m c main_v18 : S1x64.Idx → EReal)
    = shapeCast S1x64 (m ((c : Thread nD τ).loc main_arg8)) shapeCasts_S64_S1x64 := by
  dsimp only [Gen.V, Gen.hostOps0]
  after_results
  rfl

theorem V_b3 (c : Dev nD) : (V m c main_v19 : S1x32.Idx → EReal)
    = shapeCast S1x32 (m ((c : Thread nD τ).loc main_arg10)) shapeCasts_S32_S1x32 := by
  dsimp only [Gen.V, Gen.hostOps0]
  after_results
  rfl

/-! ## The printed index maps, decided over the 125 points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem lt_points (t : Fin cfg0.N) : t.val < 125 := lt_of_lt_of_eq t.isLt N_0

/-! ## Each window's block, read where the index map puts it -/

/-- Row `p` of point `t`'s block is row `8000 t + p` of the array. -/
def rowOf (t : Fin cfg0.N) (p : Fin 8000) : Fin 1000000 :=
  ⟨t.val * 8000 + p.val, by have := lt_points t; omega⟩

theorem read_bond (c : Dev nD) (t : Fin cfg0.N) (p : Fin 8000) (k : Fin 64) :
    iblk m c 0 t (ix2 p k) = V m c main_arg0 (ix2 (rowOf t p) k) := by
  show V m c main_arg0 (((cfg0.win 0).blk t).view.emb (ix2 p k)) = _
  refine congrArg (V m c main_arg0) (funext fun a => Fin.ext ?_)
  obtain ⟨e00, e01, -⟩ := idx_facts t
  match a with
  | ⟨0, _⟩ => show win0_0.index t (0 : Fin 2) * 8000 + 1 * p.val = t.val * 8000 + p.val; rw [e00]; omega
  | ⟨1, _⟩ => show win0_0.index t (1 : Fin 2) * 64 + 1 * k.val = k.val; rw [e01]; omega

theorem read_atoms (c : Dev nD) (t : Fin cfg0.N) (p : Fin 8000) (k : Fin 128) :
    iblk m c 1 t (ix2 p k) = V m c main_v8 (ix2 (rowOf t p) k) := by
  show V m c main_v8 (((cfg0.win 1).blk t).view.emb (ix2 p k)) = _
  refine congrArg (V m c main_v8) (funext fun a => Fin.ext ?_)
  obtain ⟨-, -, e10, e11, -⟩ := idx_facts t
  match a with
  | ⟨0, _⟩ => show win0_1.index t (0 : Fin 2) * 8000 + 1 * p.val = t.val * 8000 + p.val; rw [e10]; omega
  | ⟨1, _⟩ => show win0_1.index t (1 : Fin 2) * 128 + 1 * k.val = k.val; rw [e11]; omega

theorem read_glob (c : Dev nD) (t : Fin cfg0.N) (p : Fin 8000) (k : Fin 64) :
    iblk m c 2 t (ix2 p k) = V m c main_v16 (ix2 (rowOf t p) k) := by
  show V m c main_v16 (((cfg0.win 2).blk t).view.emb (ix2 p k)) = _
  refine congrArg (V m c main_v16) (funext fun a => Fin.ext ?_)
  obtain ⟨-, -, -, -, e20, e21, -⟩ := idx_facts t
  match a with
  | ⟨0, _⟩ => show win0_2.index t (0 : Fin 2) * 8000 + 1 * p.val = t.val * 8000 + p.val; rw [e20]; omega
  | ⟨1, _⟩ => show win0_2.index t (1 : Fin 2) * 64 + 1 * k.val = k.val; rw [e21]; omega

theorem read_w1 (c : Dev nD) (t : Fin cfg0.N) : iblk m c 3 t = V m c main_arg5 := by
  funext y
  show V m c main_arg5 (((cfg0.win 3).blk t).view.emb y) = _
  refine congrArg (V m c main_arg5) (funext fun a => Fin.ext ?_)
  obtain ⟨-, -, -, -, -, -, e0, e1, -⟩ := idx_facts t
  match a with
  | ⟨0, _⟩ => show win0_3.index t (0 : Fin 2) * 256 + 1 * (y 0).val = (y 0).val; rw [e0]; omega
  | ⟨1, _⟩ => show win0_3.index t (1 : Fin 2) * 64 + 1 * (y 1).val = (y 1).val; rw [e1]; omega

theorem read_b1 (c : Dev nD) (t : Fin cfg0.N) : iblk m c 4 t = V m c main_v17 := by
  funext y
  show V m c main_v17 (((cfg0.win 4).blk t).view.emb y) = _
  refine congrArg (V m c main_v17) (funext fun a => Fin.ext ?_)
  obtain ⟨-, -, -, -, -, -, -, -, e0, e1, -⟩ := idx_facts t
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

theorem read_w2 (c : Dev nD) (t : Fin cfg0.N) : iblk m c 5 t = V m c main_arg7 := by
  funext y
  show V m c main_arg7 (((cfg0.win 5).blk t).view.emb y) = _
  refine congrArg (V m c main_arg7) (funext fun a => Fin.ext ?_)
  obtain ⟨-, -, -, -, -, -, -, -, -, -, e0, e1, -⟩ := idx_facts t
  match a with
  | ⟨0, _⟩ => show win0_5.index t (0 : Fin 2) * 64 + 1 * (y 0).val = (y 0).val; rw [e0]; omega
  | ⟨1, _⟩ => show win0_5.index t (1 : Fin 2) * 64 + 1 * (y 1).val = (y 1).val; rw [e1]; omega

theorem read_b2 (c : Dev nD) (t : Fin cfg0.N) : iblk m c 6 t = V m c main_v18 := by
  funext y
  show V m c main_v18 (((cfg0.win 6).blk t).view.emb y) = _
  refine congrArg (V m c main_v18) (funext fun a => Fin.ext ?_)
  obtain ⟨-, -, -, -, -, -, -, -, -, -, -, -, e0, e1, -⟩ := idx_facts t
  match a with
  | ⟨0, _⟩ => show win0_6.index t (0 : Fin 2) * 1 + 1 * (y 0).val = (y 0).val; rw [e0]; omega
  | ⟨1, _⟩ => show win0_6.index t (1 : Fin 2) * 64 + 1 * (y 1).val = (y 1).val; rw [e1]; omega

theorem read_w3 (c : Dev nD) (t : Fin cfg0.N) : iblk m c 7 t = V m c main_arg9 := by
  funext y
  show V m c main_arg9 (((cfg0.win 7).blk t).view.emb y) = _
  refine congrArg (V m c main_arg9) (funext fun a => Fin.ext ?_)
  obtain ⟨-, -, -, -, -, -, -, -, -, -, -, -, -, -, e0, e1, -⟩ := idx_facts t
  match a with
  | ⟨0, _⟩ => show win0_7.index t (0 : Fin 2) * 64 + 1 * (y 0).val = (y 0).val; rw [e0]; omega
  | ⟨1, _⟩ => show win0_7.index t (1 : Fin 2) * 32 + 1 * (y 1).val = (y 1).val; rw [e1]; omega

theorem read_b3 (c : Dev nD) (t : Fin cfg0.N) : iblk m c 8 t = V m c main_v19 := by
  funext y
  show V m c main_v19 (((cfg0.win 8).blk t).view.emb y) = _
  refine congrArg (V m c main_v19) (funext fun a => Fin.ext ?_)
  obtain ⟨-, -, -, -, -, -, -, -, -, -, -, -, -, -, -, -, e0, e1, -⟩ := idx_facts t
  match a with
  | ⟨0, _⟩ => show win0_8.index t (0 : Fin 2) * 1 + 1 * (y 0).val = (y 0).val; rw [e0]; omega
  | ⟨1, _⟩ => show win0_8.index t (1 : Fin 2) * 32 + 1 * (y 1).val = (y 1).val; rw [e1]; omega

/-! ## From blocks to the array -/
/-- What point `t` writes back is block `t` of the layer applied to the arrays the region finds. -/
theorem flushed_eq (c : Dev nD) (t : Fin cfg0.N) :
    (dats m 0 c).flushed 9 t = ((cfg0.win 9).blk t).view.read (Elt Ideal)
      (bondLayer (V m c main_arg0) (V m c main_v8) (V m c main_v16) (V m c main_arg5) (V m c main_v17)
        (V m c main_arg7) (V m c main_v18) (V m c main_arg9) (V m c main_v19)) := by
  rw [Cert.KernelIdeal.Value.flushed9]
  funext y
  show out0_9 (iblk m c 0 t) (iblk m c 1 t) (iblk m c 2 t) (iblk m c 3 t) (iblk m c 4 t) (iblk m c 5 t) (iblk m c 6 t) (iblk m c 7 t) (iblk m c 8 t) y
      = bondLayer (V m c main_arg0) (V m c main_v8) (V m c main_v16) (V m c main_arg5) (V m c main_v17)
        (V m c main_arg7) (V m c main_v18) (V m c main_arg9) (V m c main_v19) (((cfg0.win 9).blk t).view.emb y)
  refine (out_block_at (iblk m c 0 t) (iblk m c 1 t) (iblk m c 2 t) (iblk m c 3 t) (iblk m c 4 t) (iblk m c 5 t) (iblk m c 6 t) (iblk m c 7 t) (iblk m c 8 t) y).trans ?_
  obtain ⟨-, -, -, -, -, -, -, -, -, -, -, -, -, -, -, -, -, -, e90, e91⟩ := idx_facts t
  have hrow : ((cfg0.win 9).blk t).view.emb y 0 = rowOf t (y 0) :=
    Fin.ext (by show win0_9.index t (0 : Fin 2) * 8000 + 1 * (y 0).val = t.val * 8000 + (y 0).val; rw [e90]; omega)
  have hcol : ((cfg0.win 9).blk t).view.emb y 1 = y 1 :=
    Fin.ext (by show win0_9.index t (1 : Fin 2) * 32 + 1 * (y 1).val = (y 1).val; rw [e91]; omega)
  exact mlpRow_congr (read_w1 m c t) (funext fun j => congrFun (read_b1 m c t) _) (read_w2 m c t)
    (funext fun j => congrFun (read_b2 m c t) _) (read_w3 m c t) (funext fun j => congrFun (read_b3 m c t) _)
    (funext fun k => (read_bond m c t (y 0) k).trans (congrArg (fun r => V m c main_arg0 (ix2 r k)) hrow.symm))
    (funext fun k => (read_atoms m c t (y 0) k).trans (congrArg (fun r => V m c main_v8 (ix2 r k)) hrow.symm))
    (funext fun k => (read_glob m c t (y 0) k).trans (congrArg (fun r => V m c main_v16 (ix2 r k)) hrow.symm))
    hcol.symm

/-- An index of the array is in point `t`'s block iff each coordinate is in the block's range on its axis. -/
theorem mem_blk (t : Fin cfg0.N) (i : S1000000x32.Idx) :
    i ∈ ((cfg0.win 9).blk t).view.set ↔ ∀ a : Fin 2, win0_9.index t a * S8000x32.size a ≤ (i a).val ∧ (i a).val < win0_9.index t a * S8000x32.size a + S8000x32.size a := by
  show i ∈ ((View.whole main_v20).slice (win0_9.rect t)).set ↔ _
  rw [View.set_slice_whole, Rect.mem_set_unit]
  exact Iff.rfl

/-- Every row lies in the block of the point `row / 8000`: the 125 blocks tile the array. -/
theorem cover (i : S1000000x32.Idx) : ∃ t : Fin cfg0.N, (cfg0.win 9).flush t = true ∧ i ∈ ((cfg0.win 9).blk t).view.set := by
  have hi0 : (i 0).val < 1000000 := (i 0).isLt
  have hi1 : (i 1).val < 32 := (i 1).isLt
  have hN : (i 0).val / 8000 < cfg0.N := lt_of_lt_of_eq (by omega : (i 0).val / 8000 < 125) N_0.symm
  refine ⟨⟨(i 0).val / 8000, hN⟩, flush0_9 _, ?_⟩
  rw [mem_blk]
  obtain ⟨-, -, -, -, -, -, -, -, -, -, -, -, -, -, -, -, -, -, e90, e91⟩ := idx_facts ⟨(i 0).val / 8000, hN⟩
  intro a
  match a with
  | ⟨0, _⟩ =>
    show win0_9.index ⟨(i 0).val / 8000, hN⟩ (0 : Fin 2) * 8000 ≤ (i 0).val ∧ (i 0).val < win0_9.index ⟨(i 0).val / 8000, hN⟩ (0 : Fin 2) * 8000 + 8000
    rw [e90]
    show (i 0).val / 8000 * 8000 ≤ (i 0).val ∧ (i 0).val < (i 0).val / 8000 * 8000 + 8000
    omega
  | ⟨1, _⟩ =>
    show win0_9.index ⟨(i 0).val / 8000, hN⟩ (1 : Fin 2) * 32 ≤ (i 1).val ∧ (i 1).val < win0_9.index ⟨(i 0).val / 8000, hN⟩ (1 : Fin 2) * 32 + 32
    rw [e91]
    omega

/-- The array after the run is the layer applied to the arrays the region finds. -/
theorem final (c : Dev nD) : (dats m 0 c).arrAt 9 cfg0.N
    = bondLayer (V m c main_arg0) (V m c main_v8) (V m c main_v16) (V m c main_arg5) (V m c main_v17)
        (V m c main_arg7) (V m c main_v18) (V m c main_arg9) (V m c main_v19) :=
  (dats m 0 c).arrAt_eq_of_cover 9 _ (fun t _ => flushed_eq m c t) cover

/-! ## The run -/

/-- Every weakly fair execution terminates with the result array at the layer of the argument arrays (the gathered
    rows and the bias rows as the host's operations of them) and the arguments unchanged. -/
theorem run : θ_run defs (onTc (τ := τ) (main (F := Ideal))) ⟨m, fun _ => 0, ρ⟩ fun r => ∀ c : Dev nD,
      r.2.mem ((c : Thread nD τ).loc main_v20)
        = bondLayer (m ((c : Thread nD τ).loc main_arg0))
            (atomRows (m ((c : Thread nD τ).loc main_arg1)) (m ((c : Thread nD τ).loc main_arg3)))
            (globRows (m ((c : Thread nD τ).loc main_arg2)) (m ((c : Thread nD τ).loc main_arg4)))
            (m ((c : Thread nD τ).loc main_arg5)) (shapeCast S1x64 (m ((c : Thread nD τ).loc main_arg6)) shapeCasts_S64_S1x64)
            (m ((c : Thread nD τ).loc main_arg7)) (shapeCast S1x64 (m ((c : Thread nD τ).loc main_arg8)) shapeCasts_S64_S1x64)
            (m ((c : Thread nD τ).loc main_arg9)) (shapeCast S1x32 (m ((c : Thread nD τ).loc main_arg10)) shapeCasts_S32_S1x32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((final m c).trans (by
      rw [V_main_arg0, V_atoms, V_glob, V_main_arg5, V_b1, V_main_arg7, V_b2, V_main_arg9, V_b3])), (h c).2⟩)
    (Cert.KernelIdeal.Value.run_blocks m ρ)

end Cert.KernelIdeal.Array

end
-- ==== Proof.RefValue.lean ====
/-
  The reference's result array as the same function of the argument arrays.

  The reference joins each bond's own features, its two atoms' features and its global node's features into one
  256-wide row and multiplies by W1 in one product; the kernel's three partial products are that sum over 256
  coordinates split where the pieces were joined (rows 0–63, 64–191, 192–255 of W1). The bias is laid along the rows,
  jax's `logaddexp · 0` is the stable softplus (its guard `d ≠ d` never fires on the extended reals), and the second and
  third layers are plain products. Read one operation at a time over the generated stages, entry (r, j) of the result
  is `Cert.BondMlp.mlpRow` of row r.
-/
import proofs.«111185_j18373870092600_2_alg».proof.Proof.Gen.ReferenceIdeal.Read
import proofs.«111185_j18373870092600_2_alg».proof.Proof.Spec
import Idealize.ShloMosaic.Lib.Pipeline.Value

noncomputable section

open scoped BigOperators

namespace Cert.ReferenceIdeal.RefValue

open Idealize.ShloMosaic Idealize.ShloMosaic.ValueIdx
open Cert.ReferenceIdeal Cert.ReferenceIdeal.Gen Cert.ReferenceIdeal.Read
open Cert.Lib.DenseLayer Cert.Lib.Softplus Cert.BondMlp

variable (x0 : (⟨S1000000x64, .f32⟩ : BufTy).Contents (Elt Ideal)) (x1 : (⟨S800000x64, .f32⟩ : BufTy).Contents (Elt Ideal))
  (x2 : (⟨S50000x64, .f32⟩ : BufTy).Contents (Elt Ideal)) (x3 : (⟨S1000000x2, .i32⟩ : BufTy).Contents (Elt Ideal))
  (x4 : (⟨S1000000, .i32⟩ : BufTy).Contents (Elt Ideal)) (x5 : (⟨S256x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S64x32, .f32⟩ : BufTy).Contents (Elt Ideal))
  (x10 : (⟨S32, .f32⟩ : BufTy).Contents (Elt Ideal))

/-! ## The joined row, piece by piece -/

/-- Coordinates 0–63 of the joined row are the bond's own features. -/
theorem joined_bond (r : Fin 1000000) (jj : Fin 64) (k : Fin 64) :
    val_main_v15 (F := Ideal) x0 x1 x2 x3 x4 (lidx_main_v16 (ix2 r jj) ⟨k.val, by omega⟩) = x0 (ix2 r k) := by
  unfold val_main_v15
  refine concatenate_apply_piece (t := S1000000x256) (1 : Fin 2) _ _ _ 0 ?_ S1000000x64 x0 ?_ (rfl : S1000000x64.rank = S1000000x256.rank) 0 ?_ (ix2 r k) ?_ ?_
  · exact (by decide : (0 : Nat) < 3)
  · rfl
  · rfl
  · intro b hb
    match b with
    | ⟨0, _⟩ => rfl
    | ⟨1, _⟩ => exact absurd rfl hb
  · exact Nat.zero_add _

/-- Coordinates 64–191 are the two atoms' gathered features. -/
theorem joined_atoms (r : Fin 1000000) (jj : Fin 64) (k : Fin 128) :
    val_main_v15 (F := Ideal) x0 x1 x2 x3 x4 (lidx_main_v16 (ix2 r jj) ⟨64 + k.val, by omega⟩) = val_main_v7 (F := Ideal) x1 x3 (ix2 r k) := by
  unfold val_main_v15
  refine concatenate_apply_piece (t := S1000000x256) (1 : Fin 2) _ _ _ 1 ?_ S1000000x128 (val_main_v7 (F := Ideal) x1 x3) ?_ (rfl : S1000000x128.rank = S1000000x256.rank) 64 ?_ (ix2 r k) ?_ ?_
  · exact (by decide : (1 : Nat) < 3)
  · rfl
  · rfl
  · intro b hb
    match b with
    | ⟨0, _⟩ => rfl
    | ⟨1, _⟩ => exact absurd rfl hb
  · rfl

/-- Coordinates 192–255 are the global node's gathered features. -/
theorem joined_glob (r : Fin 1000000) (jj : Fin 64) (k : Fin 64) :
    val_main_v15 (F := Ideal) x0 x1 x2 x3 x4 (lidx_main_v16 (ix2 r jj) ⟨192 + k.val, by omega⟩) = val_main_v14 (F := Ideal) x2 x4 (ix2 r k) := by
  unfold val_main_v15
  refine concatenate_apply_piece (t := S1000000x256) (1 : Fin 2) _ _ _ 2 ?_ S1000000x64 (val_main_v14 (F := Ideal) x2 x4) ?_ (rfl : S1000000x64.rank = S1000000x256.rank) 192 ?_ (ix2 r k) ?_ ?_
  · exact (by decide : (2 : Nat) < 3)
  · rfl
  · rfl
  · intro b hb
    match b with
    | ⟨0, _⟩ => rfl
    | ⟨1, _⟩ => exact absurd rfl hb
  · rfl

/-! ## The first layer -/

/-- The first layer's pre-activation at (r, j): the one product over the joined row, split into the three pieces. -/
theorem pre1_ref (r : Fin 1000000) (j : Fin 64) :
    val_main_v19 (F := Ideal) x0 x1 x2 x3 x4 x5 x6 (ix2 r j)
      = pre1 x5 (fun j => x6 (ix1 j)) (fun k => x0 (ix2 r k)) (fun k => val_main_v7 (F := Ideal) x1 x3 (ix2 r k))
          (fun k => val_main_v14 (F := Ideal) x2 x4 (ix2 r k)) j := by
  show val_main_v16 (F := Ideal) x0 x1 x2 x3 x4 x5 (ix2 r j) + val_main_v18 (F := Ideal) x6 (ix2 r j) = _
  rw [val_main_v16_apply, val_main_v18_apply, val_main_v17_apply, sum_fin256_split]
  unfold pre1
  refine congrArg₂ (· + ·) (congrArg₂ (· + ·) (congrArg₂ (· + ·) ?_ ?_) ?_) ?_
  · refine Finset.sum_congr rfl fun k _ => congrArg₂ (· * ·) (joined_bond x0 x1 x2 x3 x4 r j k) (congrArg x5 (funext fun a => Fin.ext ?_))
    match a with
    | ⟨0, _⟩ => rfl
    | ⟨1, _⟩ => rfl
  · refine Finset.sum_congr rfl fun k _ => congrArg₂ (· * ·) (joined_atoms x0 x1 x2 x3 x4 r j k) (congrArg x5 (funext fun a => Fin.ext ?_))
    match a with
    | ⟨0, _⟩ => rfl
    | ⟨1, _⟩ => rfl
  · refine Finset.sum_congr rfl fun k _ => congrArg₂ (· * ·) (joined_glob x0 x1 x2 x3 x4 r j k) (congrArg x5 (funext fun a => Fin.ext ?_))
    match a with
    | ⟨0, _⟩ => rfl
    | ⟨1, _⟩ => rfl
  · refine congrArg x6 (funext fun a => Fin.ext ?_)
    match a with
    | ⟨0, _⟩ => rfl

/-! ## Softplus -/

theorem zeros0_v0 (i : S1000000x64.Idx) : val_main_call0_v0 (F := Ideal) i = 0 := (val_main_call0_v0_apply i).trans zero_word
theorem zeros0_v2 (i : S1000000x64.Idx) : val_main_call0_v2 (F := Ideal) i = 0 := (val_main_call0_v2_apply i).trans zero_word
theorem zeros0_v5 (i : S1000000x64.Idx) : val_main_call0_v5 (F := Ideal) i = 0 := (val_main_call0_v5_apply i).trans zero_word
theorem zeros1_v0 (i : S1000000x64.Idx) : val_main_call1_v0 (F := Ideal) i = 0 := (val_main_call1_v0_apply i).trans zero_word
theorem zeros1_v2 (i : S1000000x64.Idx) : val_main_call1_v2 (F := Ideal) i = 0 := (val_main_call1_v2_apply i).trans zero_word
theorem zeros1_v5 (i : S1000000x64.Idx) : val_main_call1_v5 (F := Ideal) i = 0 := (val_main_call1_v5_apply i).trans zero_word

/-- The first softplus call, read at an index. -/
theorem softplus0 (i : S1000000x64.Idx) :
    val_main_v20 (F := Ideal) x0 x1 x2 x3 x4 x5 x6 i = sp (val_main_v19 (F := Ideal) x0 x1 x2 x3 x4 x5 x6 i) := by
  unfold val_main_v20 val_main_call0_v4 val_main_call0_v6 val_main_call0_v11 val_main_call0_v1 val_main_call0_v10
    val_main_call0_v9 val_main_call0_v8 val_main_call0_v7 val_main_call0_v3
  generalize val_main_v19 (F := Ideal) x0 x1 x2 x3 x4 x5 x6 = v
  exact softplus_host_apply v _ _ _ zeros0_v0 zeros0_v2 zeros0_v5 i

/-- The second softplus call, read at an index. -/
theorem softplus1 (i : S1000000x64.Idx) :
    val_main_v25 (F := Ideal) x0 x1 x2 x3 x4 x5 x6 x7 x8 i = sp (val_main_v24 (F := Ideal) x0 x1 x2 x3 x4 x5 x6 x7 x8 i) := by
  unfold val_main_v25 val_main_call1_v4 val_main_call1_v6 val_main_call1_v11 val_main_call1_v1 val_main_call1_v10
    val_main_call1_v9 val_main_call1_v8 val_main_call1_v7 val_main_call1_v3
  generalize val_main_v24 (F := Ideal) x0 x1 x2 x3 x4 x5 x6 x7 x8 = v
  exact softplus_host_apply v _ _ _ zeros1_v0 zeros1_v2 zeros1_v5 i

/-! ## The second and third layers -/

/-- The second layer's pre-activation at (r, j). -/
theorem layer2_ref (r : Fin 1000000) (j : Fin 64) :
    val_main_v24 (F := Ideal) x0 x1 x2 x3 x4 x5 x6 x7 x8 (ix2 r j)
      = affine (fun k' => sp (pre1 x5 (fun j => x6 (ix1 j)) (fun k => x0 (ix2 r k)) (fun k => val_main_v7 (F := Ideal) x1 x3 (ix2 r k))
          (fun k => val_main_v14 (F := Ideal) x2 x4 (ix2 r k)) k')) x7 (fun j => x8 (ix1 j)) j := by
  show val_main_v21 (F := Ideal) x0 x1 x2 x3 x4 x5 x6 x7 (ix2 r j) + val_main_v23 (F := Ideal) x8 (ix2 r j) = _
  rw [val_main_v21_apply, val_main_v23_apply, val_main_v22_apply]
  unfold affine
  refine congrArg₂ (· + ·) (Finset.sum_congr rfl fun k _ => congrArg₂ (· * ·) ?_ (congrArg x7 (funext fun a => Fin.ext ?_))) ?_
  · have e : lidx_main_v21 (ix2 r j) k = ix2 r k := funext fun a => Fin.ext (by
      match a with
      | ⟨0, _⟩ => rfl
      | ⟨1, _⟩ => rfl)
    rw [e, softplus0, pre1_ref]
  · match a with
    | ⟨0, _⟩ => rfl
    | ⟨1, _⟩ => rfl
  · refine congrArg x8 (funext fun a => Fin.ext ?_)
    match a with
    | ⟨0, _⟩ => rfl

/-- The result at (r, j): the three layers on row r. -/
theorem layer3_ref (r : Fin 1000000) (j : Fin 32) :
    val_main_v29 (F := Ideal) x0 x1 x2 x3 x4 x5 x6 x7 x8 x9 x10 (ix2 r j)
      = mlpRow x5 (fun j => x6 (ix1 j)) x7 (fun j => x8 (ix1 j)) x9 (fun j => x10 (ix1 j))
          (fun k => x0 (ix2 r k)) (fun k => val_main_v7 (F := Ideal) x1 x3 (ix2 r k)) (fun k => val_main_v14 (F := Ideal) x2 x4 (ix2 r k)) j := by
  show val_main_v26 (F := Ideal) x0 x1 x2 x3 x4 x5 x6 x7 x8 x9 (ix2 r j) + val_main_v28 (F := Ideal) x10 (ix2 r j) = _
  rw [val_main_v26_apply, val_main_v28_apply, val_main_v27_apply]
  unfold mlpRow affine
  refine congrArg₂ (· + ·) (Finset.sum_congr rfl fun k _ => congrArg₂ (· * ·) ?_ (congrArg x9 (funext fun a => Fin.ext ?_))) ?_
  · have e : lidx_main_v26 (ix2 r j) k = ix2 r k := funext fun a => Fin.ext (by
      match a with
      | ⟨0, _⟩ => rfl
      | ⟨1, _⟩ => rfl)
    rw [e, softplus1, layer2_ref]
    rfl
  · match a with
    | ⟨0, _⟩ => rfl
    | ⟨1, _⟩ => rfl
  · refine congrArg x10 (funext fun a => Fin.ext ?_)
    match a with
    | ⟨0, _⟩ => rfl

/-! ## The whole array -/

/-- The reference's result is the layer of the argument arrays, for any one-row matrices holding the biases. -/
theorem result_eq (b1r : S1x64.Idx → EReal) (hb1 : ∀ j : Fin 64, b1r (ix2 (0 : Fin 1) j) = x6 (ix1 j))
    (b2r : S1x64.Idx → EReal) (hb2 : ∀ j : Fin 64, b2r (ix2 (0 : Fin 1) j) = x8 (ix1 j))
    (b3r : S1x32.Idx → EReal) (hb3 : ∀ j : Fin 32, b3r (ix2 (0 : Fin 1) j) = x10 (ix1 j)) :
    val_main_v29 (F := Ideal) x0 x1 x2 x3 x4 x5 x6 x7 x8 x9 x10
      = bondLayer x0 (val_main_v7 (F := Ideal) x1 x3) (val_main_v14 (F := Ideal) x2 x4) x5 b1r x7 b2r x9 b3r := by
  funext i
  obtain ⟨r, j, rfl⟩ : ∃ (r : Fin 1000000) (j : Fin 32), i = ix2 r j := ⟨i 0, i 1, eq_ix2 i⟩
  rw [layer3_ref]
  exact mlpRow_congr rfl (funext fun j => (hb1 j).symm) rfl (funext fun j => (hb2 j).symm) rfl (funext fun j => (hb3 j).symm)
    rfl rfl rfl rfl

end Cert.ReferenceIdeal.RefValue

end
-- ==== Proof.lean ====
/-
  The bond-update layer of a message-passing network: a Pallas kernel against its jnp reference, over the extended reals.

  Both programs gather, for each of 1,000,000 bonds, the features of its two atoms (128 values) and of its global node
  (64 values) with the same host operations, and apply three dense layers with softplus after the first two to the
  bond's 64 + 128 + 64 values. The reference joins the three pieces into one 256-wide row and multiplies by W1 once;
  the kernel streams 8000-row blocks of the three pieces through a 125-point grid and adds three partial products
  against rows 0–63, 64–191 and 192–255 of W1. On the extended reals the casts to bf16 are the identity, a product into a
  zero accumulator is the host's product, a sum over 256 coordinates is the sum of its three stretches (only
  commutativity and associativity of addition: no finiteness is used), and the two spellings of softplus
  (`0 - |d|` against `-|d|`, an ordered against an unordered `d ≠ d` guard) are one function. So both result arrays are
  `Cert.BondMlp.bondLayer` of the argument arrays.

  The three frames are the generated ones (the reference's is its generated run with the result dropped); the ideal
  pass's ledger is empty. The kernel's array is read in Proof/KernelBlock.lean (one grid point) and
  Proof/KernelArray.lean (the 125 blocks tile the array); the reference's in Proof/RefValue.lean.
-/
import proofs.«111185_j18373870092600_2_alg».proof.Defs
import proofs.«111185_j18373870092600_2_alg».proof.Proof.Gen.Kernel
import proofs.«111185_j18373870092600_2_alg».proof.Proof.Gen.Kernel.Skeleton
import proofs.«111185_j18373870092600_2_alg».proof.Proof.Gen.Kernel.Launch
import proofs.«111185_j18373870092600_2_alg».proof.Proof.Gen.Kernel.Points
import proofs.«111185_j18373870092600_2_alg».proof.Proof.Gen.Kernel.Frame
import proofs.«111185_j18373870092600_2_alg».proof.Proof.Gen.KernelIdeal
import proofs.«111185_j18373870092600_2_alg».proof.Proof.Gen.KernelIdeal.Skeleton
import proofs.«111185_j18373870092600_2_alg».proof.Proof.Gen.KernelIdeal.Launch
import proofs.«111185_j18373870092600_2_alg».proof.Proof.Gen.KernelIdeal.Points
import proofs.«111185_j18373870092600_2_alg».proof.Proof.Gen.KernelIdeal.Frame
import proofs.«111185_j18373870092600_2_alg».proof.Proof.Gen.ReferenceIdeal
import proofs.«111185_j18373870092600_2_alg».proof.Proof.Gen.Pre_finite_inputs
import proofs.«111185_j18373870092600_2_alg».proof.Proof.Gen.KernelIdeal.Value
import proofs.«111185_j18373870092600_2_alg».proof.Proof.Gen.ReferenceIdeal.Run
import proofs.«111185_j18373870092600_2_alg».proof.Proof.Gen.ReferenceIdeal.Read
import proofs.«111185_j18373870092600_2_alg».proof.Proof.KernelArray
import proofs.«111185_j18373870092600_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-! ## The gathered rows are the same arrays in both programs -/

/-- Both programs gather the atoms' features with the same operations (the kernel's stored as bf16: the same values). -/
theorem atoms_eq (x1 : (⟨Cert.KernelIdeal.S800000x64, .f32⟩ : BufTy).Contents (Elt Ideal))
    (x3 : (⟨Cert.KernelIdeal.S1000000x2, .i32⟩ : BufTy).Contents (Elt Ideal)) :
    Cert.KernelIdeal.Array.atomRows x1 x3 = Cert.ReferenceIdeal.Read.val_main_v7 (F := Ideal) x1 x3 := rfl

/-- Both programs gather the global features with the same operations. -/
theorem glob_eq (x2 : (⟨Cert.KernelIdeal.S50000x64, .f32⟩ : BufTy).Contents (Elt Ideal))
    (x4 : (⟨Cert.KernelIdeal.S1000000, .i32⟩ : BufTy).Contents (Elt Ideal)) :
    Cert.KernelIdeal.Array.globRows x2 x4 = Cert.ReferenceIdeal.Read.val_main_v14 (F := Ideal) x2 x4 := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories agreeing on the arguments both programs end with the result at `bondLayer` of the argument arrays:
    the kernel's by the 125 blocks, the reference's by its operations read one at a time. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v29_eq, h0, h1, h2, h3, h4, h5, h6, h7, h8, h9, h10, atoms_eq, glob_eq]
  exact Cert.ReferenceIdeal.RefValue.result_eq _ _ _ _ _ _ _ _ _ _ _
    _ (fun j => shapeCast_a_1a_apply _ _ 0 j) _ (fun j => shapeCast_a_1a_apply _ _ 0 j) _ (fun j => shapeCast_a_1a_apply _ _ 0 j)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
